-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S250000 : Shape := ⟨1, ![250000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S500000x128 .f32) (main_arg1 : IVec S250000 32) (main_arg2 : FVec F S128x128 .f32) (main_arg3 : FVec F S128 .f32) (main_arg4 : FVec F S128x4 .f32) (main_arg5 : FVec F S4 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x4 .f32 := Host.absf main_arg4
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg5 main_v13 main_v16
-- ==== Kernel.lean ====
abbrev S500000x128 : Shape := ⟨2, ![500000, 128]⟩
abbrev S250000 : Shape := ⟨1, ![250000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S500000x1 : Shape := ⟨2, ![500000, 1]⟩
abbrev S250000x1 : Shape := ⟨2, ![250000, 1]⟩
abbrev S1x128 : Shape := ⟨2, ![1, 128]⟩
abbrev S1x4 : Shape := ⟨2, ![1, 4]⟩
abbrev S500000x4 : Shape := ⟨2, ![500000, 4]⟩
abbrev S2000x128 : Shape := ⟨2, ![2000, 128]⟩
abbrev S2000x1 : Shape := ⟨2, ![2000, 1]⟩
abbrev S2000x4 : Shape := ⟨2, ![2000, 4]⟩

abbrev nBuf : Space → Nat
  | .hbm => 22
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S250000, .i32⟩
  | .hbm, ⟨2, _⟩ => ⟨S128x128, .f32⟩
  | .hbm, ⟨3, _⟩ => ⟨S128, .f32⟩
  | .hbm, ⟨4, _⟩ => ⟨S128x4, .f32⟩
  | .hbm, ⟨5, _⟩ => ⟨S4, .f32⟩
  | .hbm, ⟨6, _⟩ => ⟨S_, .f32⟩
  | .hbm, ⟨7, _⟩ => ⟨S500000x1, .f32⟩
  | .hbm, ⟨8, _⟩ => ⟨S_, .i32⟩
  | .hbm, ⟨9, _⟩ => ⟨S250000, .i32⟩
  | .hbm, ⟨10, _⟩ => ⟨S250000, .i1⟩
  | .hbm, ⟨11, _⟩ => ⟨S_, .i32⟩
  | .hbm, ⟨12, _⟩ => ⟨S250000, .i32⟩
  | .hbm, ⟨13, _⟩ => ⟨S250000, .i32⟩
  | .hbm, ⟨14, _⟩ => ⟨S250000, .i32⟩
  | .hbm, ⟨15, _⟩ => ⟨S250000x1, .i32⟩
  | .hbm, ⟨16, _⟩ => ⟨S_, .f32⟩
  | .hbm, ⟨17, _⟩ => ⟨S250000x1, .f32⟩
  | .hbm, ⟨18, _⟩ => ⟨S500000x1, .f32⟩
  | .hbm, ⟨19, _⟩ => ⟨S1x128, .f32⟩
  | .hbm, ⟨20, _⟩ => ⟨S1x4, .f32⟩
  | .hbm, ⟨21, _⟩ => ⟨S500000x4, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S128x4, .f32⟩
  | .local _ .vmem, ⟨7, _⟩ => ⟨S1x4, .f32⟩
  | .local _ .vmem, ⟨8, _⟩ => ⟨S2000x4, .f32⟩
  | .local _ .vmem, ⟨9, _⟩ => ⟨S2000x4, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S500000x1 : S_.BroadcastsInDim S500000x1 (![] : Fin 0 → Fin S500000x1.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  shapeCasts_S128_S1x128 : S128.ShapeCasts S1x128
  shapeCasts_S4_S1x4 : S4.ShapeCasts S1x4
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x4 : S2000x1.Broadcasts S2000x4
  inb_S2000x4_S2000x4_0_0 : ∀ a, (![0, 0] : Fin 2 → Nat) a + S2000x4.size a ≤ S2000x4.size a
  h_S2000x4 : 0 < S2000x4.numel
  scatter_S500000x1_S250000x1_S250000x1_1_0_0_1_wf : ScatterDims.WF S500000x1 S250000x1 S250000x1 [1] [0] [0] 1
  dot_S2000x128_S128x128_S2000x128_1_0_0_1_n_n_wf : DotDims.WF S2000x128 S128x128 S2000x128 [1] [0] [0] [1] [] []
  dot_S2000x128_S128x4_S2000x4_1_0_0_1_n_n_wf : DotDims.WF S2000x128 S128x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S500000x1.size a
  hwx0_1 : ∀ i : grid0.Coords, EltTy.bits .f32 = 32 ∨ (Rect.block (s := S500000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4.size a ≤ S128x4.size a
  hwx0_4 : ∀ i : grid0.Coords, EltTy.bits .f32 = 32 ∨ (Rect.block (s := S128x4) S128x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4.size a ≤ S1x4.size a
  hwx0_5 : ∀ i : grid0.Coords, EltTy.bits .f32 = 32 ∨ (Rect.block (s := S1x4) S1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x4.size a ≤ S500000x4.size a
  hwx0_6 : ∀ i : grid0.Coords, EltTy.bits .f32 = 32 ∨ (Rect.block (s := S500000x4) S2000x4.size (cc0_transform_6 i) (hinb0_6 i)).WholeWords (EltTy.packing .f32)

variable [Facts₀]

def scatter_S500000x1_S250000x1_S250000x1_1_0_0_1 : ScatterDims S500000x1 S250000x1 S250000x1 where
  updateWindowDims := [1]
  insertedWindowDims := [0]
  scatterDimsToOperandDims := [0]
  indexVectorDim := 1
  wf := scatter_S500000x1_S250000x1_S250000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2000x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S500000x128 : Shape := ⟨2, ![500000, 128]⟩
abbrev S250000 : Shape := ⟨1, ![250000]⟩
abbrev S128x128 : Shape := ⟨2, ![128, 128]⟩
abbrev S128 : Shape := ⟨1, ![128]⟩
abbrev S128x4 : Shape := ⟨2, ![128, 4]⟩
abbrev S4 : Shape := ⟨1, ![4]⟩
abbrev S_ : Shape := ⟨0, ![]⟩
abbrev S250000x1 : Shape := ⟨2, ![250000, 1]⟩
abbrev S250000x128 : Shape := ⟨2, ![250000, 128]⟩
abbrev S1x128 : Shape := ⟨2, ![1, 128]⟩
abbrev S250000x4 : Shape := ⟨2, ![250000, 4]⟩
abbrev S1x4 : Shape := ⟨2, ![1, 4]⟩
abbrev S500000x4 : Shape := ⟨2, ![500000, 4]⟩

abbrev nBuf : Space → Nat
  | .hbm => 42
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S250000, .i32⟩
  | .hbm, ⟨2, _⟩ => ⟨S128x128, .f32⟩
  | .hbm, ⟨3, _⟩ => ⟨S128, .f32⟩
  | .hbm, ⟨4, _⟩ => ⟨S128x4, .f32⟩
  | .hbm, ⟨5, _⟩ => ⟨S4, .f32⟩
  | .hbm, ⟨6, _⟩ => ⟨S_, .i32⟩
  | .hbm, ⟨7, _⟩ => ⟨S250000, .i32⟩
  | .hbm, ⟨8, _⟩ => ⟨S250000, .i1⟩
  | .hbm, ⟨9, _⟩ => ⟨S_, .i32⟩
  | .hbm, ⟨10, _⟩ => ⟨S250000, .i32⟩
  | .hbm, ⟨11, _⟩ => ⟨S250000, .i32⟩
  | .hbm, ⟨12, _⟩ => ⟨S250000, .i32⟩
  | .hbm, ⟨13, _⟩ => ⟨S250000x1, .i32⟩
  | .hbm, ⟨14, _⟩ => ⟨S250000x128, .f32⟩
  | .hbm, ⟨15, _⟩ => ⟨S250000x128, .f32⟩
  | .hbm, ⟨16, _⟩ => ⟨S1x128, .f32⟩
  | .hbm, ⟨17, _⟩ => ⟨S250000x128, .f32⟩
  | .hbm, ⟨18, _⟩ => ⟨S250000x128, .f32⟩
  | .hbm, ⟨19, _⟩ => ⟨S_, .f32⟩
  | .hbm, ⟨20, _⟩ => ⟨S_, .f32⟩
  | .hbm, ⟨21, _⟩ => ⟨S250000x128, .f32⟩
  | .hbm, ⟨22, _⟩ => ⟨S250000x128, .i1⟩
  | .hbm, ⟨23, _⟩ => ⟨S_, .f32⟩
  | .hbm, ⟨24, _⟩ => ⟨S250000x128, .f32⟩
  | .hbm, ⟨25, _⟩ => ⟨S250000x128, .f32⟩
  | .hbm, ⟨26, _⟩ => ⟨S250000x128, .f32⟩
  | .hbm, ⟨27, _⟩ => ⟨S250000x4, .f32⟩
  | .hbm, ⟨28, _⟩ => ⟨S1x4, .f32⟩
  | .hbm, ⟨29, _⟩ => ⟨S250000x4, .f32⟩
  | .hbm, ⟨30, _⟩ => ⟨S250000x4, .f32⟩
  | .hbm, ⟨31, _⟩ => ⟨S_, .f32⟩
  | .hbm, ⟨32, _⟩ => ⟨S500000x4, .f32⟩
  | .hbm, ⟨33, _⟩ => ⟨S_, .i32⟩
  | .hbm, ⟨34, _⟩ => ⟨S250000, .i32⟩
  | .hbm, ⟨35, _⟩ => ⟨S250000, .i1⟩
  | .hbm, ⟨36, _⟩ => ⟨S_, .i32⟩
  | .hbm, ⟨37, _⟩ => ⟨S250000, .i32⟩
  | .hbm, ⟨38, _⟩ => ⟨S250000, .i32⟩
  | .hbm, ⟨39, _⟩ => ⟨S250000, .i32⟩
  | .hbm, ⟨40, _⟩ => ⟨S250000x1, .i32⟩
  | .hbm, ⟨41, _⟩ => ⟨S500000x4, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S_S250000x128 : S_.BroadcastsInDim S250000x128 (![] : Fin 0 → Fin S250000x128.rank)
  bcast_S4_S1x4_1 : S4.BroadcastsInDim S1x4 (![1] : Fin 1 → Fin S1x4.rank)
  bcast_S1x4_S250000x4_0_1 : S1x4.BroadcastsInDim S250000x4 (![0, 1] : Fin 2 → Fin S250000x4.rank)
  bcast_S_S500000x4 : S_.BroadcastsInDim S500000x4 (![] : Fin 0 → Fin S500000x4.rank)
  gather_S500000x128_S250000x1_S250000x128_1_0_n_n_0_1_1128_wf : GatherDims.WF S500000x128 S250000x1 S250000x128 [1] [0] [] [0] [] 1 ![1, 128]
  dot_S250000x128_S128x128_S250000x128_1_0_0_1_n_n_wf : DotDims.WF S250000x128 S128x128 S250000x128 [1] [0] [0] [1] [] []
  dot_S250000x128_S128x4_S250000x4_1_0_0_1_n_n_wf : DotDims.WF S250000x128 S128x4 S250000x4 [1] [0] [0] [1] [] []
  scatter_S500000x4_S250000x1_S250000x4_1_0_0_1_wf : ScatterDims.WF S500000x4 S250000x1 S250000x4 [1] [0] [0] 1

variable [Facts₀]

def gather_S500000x128_S250000x1_S250000x128_1_0_n_n_0_1_1128 : GatherDims S500000x128 S250000x1 S250000x128 where
  offsetDims := [1]
  collapsedSliceDims := [0]
  operandBatchingDims := []
  startIndicesBatchingDims := []
  startIndexMap := [0]
  indexVectorDim := 1
  sliceSizes := ![1, 128]
  wf := gather_S500000x128_S250000x1_S250000x128_1_0_n_n_0_1_1128_wf
def dot_S250000x128_S128x128_S250000x128_1_0_0_1_n_n : DotDims S250000x128 S128x128 S250000x128 where
  lhsContracting := [1]
  rhsContracting := [0]
  lhsNonContracting := [0]
  rhsNonContracting := [1]
  lhsBatch := []
  rhsBatch := []
  wf := dot_S250000x128_S128x128_S250000x128_1_0_0_1_n_n_wf
def dot_S250000x128_S128x4_S250000x4_1_0_0_1_n_n : DotDims S250000x128 S128x4 S250000x4 where
  lhsContracting := [1]
  rhsContracting := [0]
  lhsNonContracting := [0]
  rhsNonContracting := [1]
  lhsBatch := []
  rhsBatch := []
  wf := dot_S250000x128_S128x4_S250000x4_1_0_0_1_n_n_wf
def scatter_S500000x4_S250000x1_S250000x4_1_0_0_1 : ScatterDims S500000x4 S250000x1 S250000x4 where
  updateWindowDims := [1]
  insertedWindowDims := [0]
  scatterDimsToOperandDims := [0]
  indexVectorDim := 1
  wf := scatter_S500000x4_S250000x1_S250000x4_1_0_0_1_wf

class Facts : Prop extends Facts₀ where

variable [Facts]
-- ==== Proof.RefOps.lean ====
/-
  The reference program as a straight line, and the function it computes.

  The reference selects rows of the feature matrix (a negative row index counts from the end; an index still outside is
  clamped by the selection), sends each selected row through a two-layer map (a matrix product plus a bias, the
  leaky-ReLU activation, a second matrix product plus a bias), and writes the resulting rows into an all-zero array at
  the same row indices (an index outside the array writes nothing). Here @main — with the activation's operations at
  their call site — is listed as one sequence of host operations, and the composed function `refOut` of the six
  argument arrays is stated; that the sequence's fold at the result buffer is `refOut` is proved in the module that
  imports this one.
-/
import proofs.«135716_j19791209300472_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed function -/

/-- The row indices as the program normalises them: a negative index has the row count added. -/
def rowIdx (a1 : IVec S250000 32) : IVec S250000x1 32 :=
  broadcastInDim S250000x1 ![0] bcast_S250000_S250000x1_0
    (select (cmpi .slt a1 (broadcastInDim S250000 ![] bcast_S_S250000 (constantI S_ 32 0#32)))
      (addi a1 (broadcastInDim S250000 ![] bcast_S_S250000 (constantI S_ 32 500000#32))) a1)

/-- The first layer before its activation: the selected rows times the first weight matrix, plus the first bias. -/
def hidden (a0 : FVec F S500000x128 .f32) (a1 : IVec S250000 32) (a2 : FVec F S128x128 .f32) (a3 : FVec F S128 .f32) :
    FVec F S250000x128 .f32 :=
  addf (Host.dotGeneral dot_S250000x128_S128x128_S250000x128_1_0_0_1_n_n none
      (Host.gather gather_S500000x128_S250000x1_S250000x128_1_0_n_n_0_1_1128 a0 (rowIdx a1)) a2)
    (broadcastInDim S250000x128 ![0, 1] bcast_S1x128_S250000x128_0_1 (broadcastInDim S1x128 ![1] bcast_S128_S1x128_1 a3))

/-- The activation: `h` where `h ≥ 0`, the slope times `h` elsewhere. -/
def act (h : FVec F S250000x128 .f32) : FVec F S250000x128 .f32 :=
  select (cmpf .oge h (broadcastInDim S250000x128 ![] bcast_S_S250000x128 (constant S_ .f32 0x00000000#32))) h
    (mulf (broadcastInDim S250000x128 ![] bcast_S_S250000x128 (constant S_ .f32 0x3C23D70A#32)) h)

/-- The rows written back: the activated first layer times the second weight matrix, plus the second bias. -/
def rows (a0 : FVec F S500000x128 .f32) (a1 : IVec S250000 32) (a2 : FVec F S128x128 .f32) (a3 : FVec F S128 .f32)
    (a4 : FVec F S128x4 .f32) (a5 : FVec F S4 .f32) : FVec F S250000x4 .f32 :=
  addf (Host.dotGeneral dot_S250000x128_S128x4_S250000x4_1_0_0_1_n_n none (act (hidden a0 a1 a2 a3)) a4)
    (broadcastInDim S250000x4 ![0, 1] bcast_S1x4_S250000x4_0_1 (broadcastInDim S1x4 ![1] bcast_S4_S1x4_1 a5))

/-- The result: those rows written into an all-zero array at their row indices. -/
def refOut (a0 : FVec F S500000x128 .f32) (a1 : IVec S250000 32) (a2 : FVec F S128x128 .f32) (a3 : FVec F S128 .f32)
    (a4 : FVec F S128x4 .f32) (a5 : FVec F S4 .f32) : FVec F S500000x4 .f32 :=
  Host.scatter scatter_S500000x4_S250000x1_S250000x4_1_0_0_1 (fun _ b => b)
    (broadcastInDim S500000x4 ![] bcast_S_S500000x4 (constant S_ .f32 0x00000000#32)) (rowIdx a1) (rows a0 a1 a2 a3 a4 a5)

/-! ## @main as a list of operations -/

/-- @main's 36 operations, in order; the activation's seven stand at its call site, over that call's buffers. -/
abbrev ops : List (HloOp τ sig (Elt F)) :=
  [ StableHlo.nullary main_c (constantI S_ 32 0#32),
    StableHlo.unary main_c main_v0 (broadcastInDim S250000 ![] bcast_S_S250000 : (⟨S_, .i32⟩ : BufTy).Contents (Elt F) → (⟨S250000, .i32⟩ : BufTy).Contents (Elt F)),
    StableHlo.binary main_arg1 main_v0 main_v1 (cmpi .slt : (⟨S250000, .i32⟩ : BufTy).Contents (Elt F) → (⟨S250000, .i32⟩ : BufTy).Contents (Elt F) → (⟨S250000, .i1⟩ : BufTy).Contents (Elt F)),
    StableHlo.nullary main_c_0 (constantI S_ 32 500000#32),
    StableHlo.unary main_c_0 main_v2 (broadcastInDim S250000 ![] bcast_S_S250000 : (⟨S_, .i32⟩ : BufTy).Contents (Elt F) → (⟨S250000, .i32⟩ : BufTy).Contents (Elt F)),
    StableHlo.binary main_arg1 main_v2 main_v3 (addi : (⟨S250000, .i32⟩ : BufTy).Contents (Elt F) → (⟨S250000, .i32⟩ : BufTy).Contents (Elt F) → (⟨S250000, .i32⟩ : BufTy).Contents (Elt F)),
    StableHlo.ternary main_v1 main_v3 main_arg1 main_v4 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v4 main_v5 (broadcastInDim S250000x1 ![0] bcast_S250000_S250000x1_0 : (⟨S250000, .i32⟩ : BufTy).Contents (Elt F) → (⟨S250000x1, .i32⟩ : BufTy).Contents (Elt F)),
    StableHlo.binary main_arg0 main_v5 main_v6 ((fun x i => Host.gather gather_S500000x128_S250000x1_S250000x128_1_0_n_n_0_1_1128 x i) : (⟨S500000x128, .f32⟩ : BufTy).Contents (Elt F) → (⟨S250000x1, .i32⟩ : BufTy).Contents (Elt F) → (⟨S250000x128, .f32⟩ : BufTy).Contents (Elt F)),
    StableHlo.binary main_v6 main_arg2 main_v7 ((fun l r => Host.dotGeneral dot_S250000x128_S128x128_S250000x128_1_0_0_1_n_n none l r) : (⟨S250000x128, .f32⟩ : BufTy).Contents (Elt F) → (⟨S128x128, .f32⟩ : BufTy).Contents (Elt F) → (⟨S250000x128, .f32⟩ : BufTy).Contents (Elt F)),
    StableHlo.unary main_arg3 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S250000x128 ![0, 1] bcast_S1x128_S250000x128_0_1 : (⟨S1x128, .f32⟩ : BufTy).Contents (Elt F) → (⟨S250000x128, .f32⟩ : BufTy).Contents (Elt F)),
    StableHlo.binary main_v7 main_v9 main_v10 (addf : (⟨S250000x128, .f32⟩ : BufTy).Contents (Elt F) → (⟨S250000x128, .f32⟩ : BufTy).Contents (Elt F) → (⟨S250000x128, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S250000x128 ![] bcast_S_S250000x128),
    StableHlo.TRef.binary (.of main_v10) main_call0.v0 main_call0.v1 (cmpf .oge),
    StableHlo.TRef.unary (.of main_cst) main_call0.v2 id,
    StableHlo.TRef.unary main_call0.v2 main_call0.v3 (broadcastInDim S250000x128 ![] bcast_S_S250000x128),
    StableHlo.TRef.binary main_call0.v3 (.of main_v10) main_call0.v4 mulf,
    StableHlo.TRef.ternary main_call0.v1 (.of main_v10) main_call0.v4 main_call0.call0.v0 select,
    StableHlo.binary main_v11 main_arg4 main_v12 ((fun l r => Host.dotGeneral dot_S250000x128_S128x4_S250000x4_1_0_0_1_n_n none l r) : (⟨S250000x128, .f32⟩ : BufTy).Contents (Elt F) → (⟨S128x4, .f32⟩ : BufTy).Contents (Elt F) → (⟨S250000x4, .f32⟩ : BufTy).Contents (Elt F)),
    StableHlo.unary main_arg5 main_v13 (broadcastInDim S1x4 ![1] bcast_S4_S1x4_1 : (⟨S4, .f32⟩ : BufTy).Contents (Elt F) → (⟨S1x4, .f32⟩ : BufTy).Contents (Elt F)),
    StableHlo.unary main_v13 main_v14 (broadcastInDim S250000x4 ![0, 1] bcast_S1x4_S250000x4_0_1 : (⟨S1x4, .f32⟩ : BufTy).Contents (Elt F) → (⟨S250000x4, .f32⟩ : BufTy).Contents (Elt F)),
    StableHlo.binary main_v12 main_v14 main_v15 (addf : (⟨S250000x4, .f32⟩ : BufTy).Contents (Elt F) → (⟨S250000x4, .f32⟩ : BufTy).Contents (Elt F) → (⟨S250000x4, .f32⟩ : BufTy).Contents (Elt F)),
    StableHlo.nullary main_cst_1 (constant S_ .f32 0x00000000#32),
    StableHlo.unary main_cst_1 main_v16 (broadcastInDim S500000x4 ![] bcast_S_S500000x4 : (⟨S_, .f32⟩ : BufTy).Contents (Elt F) → (⟨S500000x4, .f32⟩ : BufTy).Contents (Elt F)),
    StableHlo.nullary main_c_2 (constantI S_ 32 0#32),
    StableHlo.unary main_c_2 main_v17 (broadcastInDim S250000 ![] bcast_S_S250000 : (⟨S_, .i32⟩ : BufTy).Contents (Elt F) → (⟨S250000, .i32⟩ : BufTy).Contents (Elt F)),
    StableHlo.binary main_arg1 main_v17 main_v18 (cmpi .slt : (⟨S250000, .i32⟩ : BufTy).Contents (Elt F) → (⟨S250000, .i32⟩ : BufTy).Contents (Elt F) → (⟨S250000, .i1⟩ : BufTy).Contents (Elt F)),
    StableHlo.nullary main_c_3 (constantI S_ 32 500000#32),
    StableHlo.unary main_c_3 main_v19 (broadcastInDim S250000 ![] bcast_S_S250000 : (⟨S_, .i32⟩ : BufTy).Contents (Elt F) → (⟨S250000, .i32⟩ : BufTy).Contents (Elt F)),
    StableHlo.binary main_arg1 main_v19 main_v20 (addi : (⟨S250000, .i32⟩ : BufTy).Contents (Elt F) → (⟨S250000, .i32⟩ : BufTy).Contents (Elt F) → (⟨S250000, .i32⟩ : BufTy).Contents (Elt F)),
    StableHlo.ternary main_v18 main_v20 main_arg1 main_v21 (select : (⟨S250000, .i1⟩ : BufTy).Contents (Elt F) → (⟨S250000, .i32⟩ : BufTy).Contents (Elt F) → (⟨S250000, .i32⟩ : BufTy).Contents (Elt F) → (⟨S250000, .i32⟩ : BufTy).Contents (Elt F)),
    StableHlo.unary main_v21 main_v22 (broadcastInDim S250000x1 ![0] bcast_S250000_S250000x1_0 : (⟨S250000, .i32⟩ : BufTy).Contents (Elt F) → (⟨S250000x1, .i32⟩ : BufTy).Contents (Elt F)),
    StableHlo.ternary main_v16 main_v22 main_v15 main_v23 ((fun x i u => Host.scatter scatter_S500000x4_S250000x1_S250000x4_1_0_0_1 (fun _ b => b) x i u) : (⟨S500000x4, .f32⟩ : BufTy).Contents (Elt F) → (⟨S250000x1, .i32⟩ : BufTy).Contents (Elt F) → (⟨S250000x4, .f32⟩ : BufTy).Contents (Elt F) → (⟨S500000x4, .f32⟩ : BufTy).Contents (Elt F)) ]

set_option maxRecDepth 2048 in
/-- @main is that straight line: the two called functions unfolded at their calls, sequencing reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub ..⟩

end Cert.ReferenceIdeal.RefRun

end
-- ==== Proof.RefRunOut.lean ====
/-
  The reference's sequence of operations, folded at its result buffer: each operation's result is read at the buffer
  it writes and passed over at every other buffer, which leaves the composed function `refOut` of the six arguments'
  contents.
-/
import proofs.«135716_j19791209300472_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 1000000 in
/-- The fold at the result buffer is the composed function of the arguments' contents. -/
theorem out_eq (V : Valuation τ sig (Elt F)) :
    after ops V (main_v23 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold refOut rows act hidden rowIdx
  after_results
  all_goals rfl

end Cert.ReferenceIdeal.RefRun

end
-- ==== Proof.RefRunArgs.lean ====
/-
  The reference's sequence of operations, folded at each argument buffer: no operation writes an argument, so each
  argument buffer ends as it was launched.
-/
import proofs.«135716_j19791209300472_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 400000 in
theorem arg0_eq (V : Valuation τ sig (Elt F)) :
    after ops V (main_arg0 : DevRef τ sig) = V (main_arg0 : DevRef τ sig) := by
  after_results

set_option maxHeartbeats 400000 in
theorem arg1_eq (V : Valuation τ sig (Elt F)) :
    after ops V (main_arg1 : DevRef τ sig) = V (main_arg1 : DevRef τ sig) := by
  after_results

set_option maxHeartbeats 400000 in
theorem arg2_eq (V : Valuation τ sig (Elt F)) :
    after ops V (main_arg2 : DevRef τ sig) = V (main_arg2 : DevRef τ sig) := by
  after_results

set_option maxHeartbeats 400000 in
theorem arg3_eq (V : Valuation τ sig (Elt F)) :
    after ops V (main_arg3 : DevRef τ sig) = V (main_arg3 : DevRef τ sig) := by
  after_results

set_option maxHeartbeats 400000 in
theorem arg4_eq (V : Valuation τ sig (Elt F)) :
    after ops V (main_arg4 : DevRef τ sig) = V (main_arg4 : DevRef τ sig) := by
  after_results

set_option maxHeartbeats 400000 in
theorem arg5_eq (V : Valuation τ sig (Elt F)) :
    after ops V (main_arg5 : DevRef τ sig) = V (main_arg5 : DevRef τ sig) := by
  after_results

end Cert.ReferenceIdeal.RefRun

end
-- ==== Proof.RefRun.lean ====
/-
  The reference's run. Every weakly fair execution of the straight line terminates with each buffer at the sequence's
  fold over the launch memory; at the result buffer that fold is `refOut` of the six argument arrays, and at the
  argument buffers it is their launch contents.
-/
import proofs.«135716_j19791209300472_2_alg».proof.Proof.RefRunOut
import proofs.«135716_j19791209300472_2_alg».proof.Proof.RefRunArgs

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, from any memory with zero counters: every weakly fair execution of @main terminates with the
    result buffer at `refOut` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v23).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.Spec.lean ====
/-
  The function both programs compute, over the extended reals.

  Each row of a feature matrix goes through a two-layer map: `h = x·W1 + b1` (128 sums of 128 products), the
  leaky-ReLU activation on every entry of `h`, then `y = act(h)·W2 + b2` (4 sums of 128 products). One program
  spells the activation "`h` where `h > 0`, else slope·`h`", the other "`h` where `h ≥ 0`, else slope·`h`";
  the two agree, since at `h = 0` the first gives slope·0 = 0 = `h`. Nothing here needs the entries to be finite:
  sums and products of extended reals are total, and `x · 0 = 0` for every extended real `x`.
-/
import Idealize.ShloMosaic.Lib.ValueIdx
import Idealize.ShloMosaic.PureOps.Ideal.Laws

noncomputable section

namespace Cert.MaskedMlp

open Idealize.ShloMosaic Idealize.ShloMosaic.ValueIdx
open scoped BigOperators

/-- The activation spelt with a strict comparison: `h` where `h > 0`, the slope times `h` elsewhere. -/
def lreluGt (h : EReal) : EReal :=
  Scalar.select (Ideal.cmp .ogt h (Ideal.ofBits .f32 0x00000000#32)) h (Ideal.ofBits .f32 0x3C23D70A#32 * h)

/-- The activation spelt with a weak comparison: `h` where `h ≥ 0`, the slope times `h` elsewhere. -/
def lreluGe (h : EReal) : EReal :=
  Scalar.select (Ideal.cmp .oge h (Ideal.ofBits .f32 0x00000000#32)) h (Ideal.ofBits .f32 0x3C23D70A#32 * h)

/-- The two spellings are one function: they differ only at `h = 0`, where slope·0 = 0. -/
theorem lrelu_eq (h : EReal) : lreluGt h = lreluGe h := by
  unfold lreluGt lreluGe
  rw [Ideal.ofBits_zero_f32]
  simp only [Ideal.cmp, Scalar.select]
  rcases lt_trichotomy (0 : EReal) h with hp | rfl | hn
  · simp [hp, hp.le]
  · simp
  · simp [not_lt.mpr hn.le, not_le.mpr hn]

/-- The word of `1.0` is the real number one. -/
theorem one_f32 : Ideal.ofBits .f32 0x3F800000#32 = (1 : EReal) := by
  simp [Ideal.ofBits, Ideal.ieee, -EReal.coe_mul]; norm_num

/-- Row `r` of `X` through the two-layer map, at output column `c`. -/
def mlp {n : ℕ} (lr : EReal → EReal) (X : (⟨2, ![n, 128]⟩ : Shape).Idx → EReal)
    (W1 : (⟨2, ![128, 128]⟩ : Shape).Idx → EReal) (b1 : Fin 128 → EReal)
    (W2 : (⟨2, ![128, 4]⟩ : Shape).Idx → EReal) (b2 : Fin 4 → EReal) (r : Fin n) (c : Fin 4) : EReal :=
  (∑ k : Fin 128, lr ((∑ d : Fin 128, X (ix2 r d) * W1 (ix2 d k)) + b1 k) * W2 (ix2 k c)) + b2 c

/-- The map reads only the one row: two matrices with equal rows `r'` and `r` give equal results there. -/
theorem mlp_congr_row {n n' : ℕ} (lr : EReal → EReal) (X : (⟨2, ![n, 128]⟩ : Shape).Idx → EReal)
    (X' : (⟨2, ![n', 128]⟩ : Shape).Idx → EReal) (W1 : (⟨2, ![128, 128]⟩ : Shape).Idx → EReal) (b1 : Fin 128 → EReal)
    (W2 : (⟨2, ![128, 4]⟩ : Shape).Idx → EReal) (b2 : Fin 4 → EReal) (r : Fin n) (r' : Fin n') (c : Fin 4)
    (h : ∀ d : Fin 128, X' (ix2 r' d) = X (ix2 r d)) : mlp lr X' W1 b1 W2 b2 r' c = mlp lr X W1 b1 W2 b2 r c := by
  unfold mlp
  simp only [h]

/-- The two spellings of the activation give the same two-layer map. -/
theorem mlp_lrelu {n : ℕ} (X : (⟨2, ![n, 128]⟩ : Shape).Idx → EReal)
    (W1 : (⟨2, ![128, 128]⟩ : Shape).Idx → EReal) (b1 : Fin 128 → EReal)
    (W2 : (⟨2, ![128, 4]⟩ : Shape).Idx → EReal) (b2 : Fin 4 → EReal) (r : Fin n) (c : Fin 4) :
    mlp lreluGt X W1 b1 W2 b2 r c = mlp lreluGe X W1 b1 W2 b2 r c := by
  unfold mlp
  simp only [lrelu_eq]

end Cert.MaskedMlp

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.LibDotRead.lean ====
/-
  The host's matrix product read at an entry, for ANY contraction record of the "rows by columns" form.

  The host's product of an `a × K` by a `K × b` array has no accumulator; at the ideal instance it is the
  accumulating product started from the all-zero block, so its entry `(p, q)` is `Σ_k lhs[p, k] · rhs[k, q]`
  with `k` over `Fin K`. The record is a variable, so one proof serves every host product of this form.
-/
import Idealize.ShloMosaic.Lib.KernelVsHost
import proofs.«135716_j19791209300472_2_alg».proof.Proof.LibMatmulRead

noncomputable section

namespace Idealize.ShloMosaic.MatmulRead

open Idealize.ShloMosaic Idealize.ShloMosaic.ValueIdx
open scoped BigOperators

variable {a K b : ℕ} {D : DotDims (⟨2, ![a, K]⟩ : Shape) (⟨2, ![K, b]⟩ : Shape) (⟨2, ![a, b]⟩ : Shape)}

/-- Entry `(p, q)` of the host's product is `Σ_k lhs[p, k] · rhs[k, q]`. -/
theorem hostDot_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    Host.dotGeneral D prec lhs rhs (ix2 p q) = ∑ k : Fin K, lhs (ix2 p k) * rhs (ix2 k q) := by
  rw [← matmul_zero_eq_dotGeneral]
  exact matmul_zero_ix2 h hr hs prec lhs rhs p q

end Idealize.ShloMosaic.MatmulRead
-- ==== Proof.LibScatterRows.lean ====
/-
  A host scatter whose body returns the update (`x.at[idx].set(v)`), read at an index.

  The scatter is a left fold over the update positions in row-major order: a position whose index lands inside the
  operand overwrites that element, a position whose index lands outside is dropped. Read at one operand index `i`
  there are two cases. Either no update position lands at `i`, and the element is the operand's; or some update
  position lands at `i`, and the element is THAT position's update. (Which one, when several land at `i`, is the
  last in row-major order; a user whose colliding updates are equal never needs to know.)

  The second half specialises this to a ROW scatter: operand `[N, C]`, one scalar row index per update row
  (`[K, 1]`), updates `[K, C]`. Update `(k, c)` lands at `(idx[k], c)` when `0 ≤ idx[k] < N` (the index read
  signed, not clamped) and is dropped otherwise, so row `r` of the result is hit exactly by the `k` with `idx[k] = r`.
-/
import Idealize.ShloMosaic.PureOps.ShapeOps
import Idealize.ShloMosaic.PureOps.Dims
import Idealize.ShloMosaic.Lib.ValueIdx

namespace Cert.LibScatterRows

open Idealize.ShloMosaic Idealize.ShloMosaic.ValueIdx

variable {α : Type}

/-- A fold of "overwrite-or-drop" steps read at `i`: the start value if no listed position lands at `i`, else the
    value of some listed position that lands at `i`. -/
theorem foldl_set_cases {β ι : Type} [DecidableEq β] (hit : ι → Option β) (val : ι → α) (stepf : (β → α) → ι → (β → α))
    (hnone : ∀ r n, hit n = none → stepf r n = r)
    (hsome : ∀ r n i, hit n = some i → stepf r n = fun i' => if i' = i then val n else r i')
    (L : List ι) : ∀ (r : β → α) (i : β),
      (L.foldl stepf r i = r i ∧ ∀ n ∈ L, hit n ≠ some i) ∨ ∃ n ∈ L, hit n = some i ∧ L.foldl stepf r i = val n := by
  induction L with
  | nil => intro r i; exact Or.inl ⟨rfl, fun _ h => absurd h List.not_mem_nil⟩
  | cons a L ih =>
    intro r i
    rw [List.foldl_cons]
    rcases ih (stepf r a) i with ⟨hv, hno⟩ | ⟨n, hn, hh, hv⟩
    · cases ha : hit a with
      | none =>
        rw [hnone r a ha] at hv ⊢
        refine Or.inl ⟨hv, fun n hn => ?_⟩
        rcases List.mem_cons.mp hn with rfl | hn
        · rw [ha]; exact fun h => nomatch h
        · exact hno n hn
      | some i0 =>
        by_cases hi : i = i0
        · refine Or.inr ⟨a, List.mem_cons_self, by rw [ha, hi], ?_⟩
          rw [hv, hsome r a i0 ha]
          exact if_pos hi
        · refine Or.inl ⟨?_, fun n hn => ?_⟩
          · rw [hv, hsome r a i0 ha]
            exact if_neg hi
          · rcases List.mem_cons.mp hn with rfl | hn
            · rw [ha]; exact fun h => hi (Option.some.inj h).symm
            · exact hno n hn
    · exact Or.inr ⟨n, List.mem_cons_of_mem _ hn, hh, hv⟩

variable {w : Nat} {s si u : Shape}

/-- One step of the scatter's fold: update position `n` overwrites the element its index lands at, or is dropped. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem step_none (d : ScatterDims s si u) (idx : IVec si w) (upd : u.Idx → α) (r : s.Idx → α) (n : Fin u.numel)
    (h : d.resultIdx? (u.rowMajor.symm n) idx = none) : step d idx upd r n = r := by
  unfold step; rw [h]

theorem step_some (d : ScatterDims s si u) (idx : IVec si w) (upd : u.Idx → α) (r : s.Idx → α) (n : Fin u.numel) (i : s.Idx)
    (h : d.resultIdx? (u.rowMajor.symm n) idx = some i) :
    step d idx upd r n = fun i' => if i' = i then upd (u.rowMajor.symm n) else r i' := by
  unfold step; rw [h]

/-- A `set` scatter is the fold of that step over the update positions in row-major order. -/
theorem scatter_eq_foldl (d : ScatterDims s si u) (x : s.Idx → α) (idx : IVec si w) (upd : u.Idx → α) :
    Host.scatter d (fun _ b => b) x idx upd = (List.finRange u.numel).foldl (step d idx upd) x := by
  unfold Host.scatter
  refine congrArg (fun f => List.foldl f x (List.finRange u.numel)) (funext fun r => funext fun n => ?_)
  unfold step
  cases d.resultIdx? (u.rowMajor.symm n) idx <;> rfl

/-- A `set` scatter read at `i`: the operand's element if no update index lands at `i`, else the update at some
    update index that lands at `i`. -/
theorem scatter_set_cases (d : ScatterDims s si u) (x : s.Idx → α) (idx : IVec si w) (upd : u.Idx → α) (i : s.Idx) :
    (Host.scatter d (fun _ b => b) x idx upd i = x i ∧ ∀ j : u.Idx, d.resultIdx? j idx ≠ some i)
      ∨ ∃ j : u.Idx, d.resultIdx? j idx = some i ∧ Host.scatter d (fun _ b => b) x idx upd i = upd j := by
  rw [scatter_eq_foldl]
  rcases foldl_set_cases (hit := fun n : Fin u.numel => d.resultIdx? (u.rowMajor.symm n) idx)
      (val := fun n => upd (u.rowMajor.symm n)) (step d idx upd)
      (step_none d idx upd) (step_some d idx upd) (List.finRange u.numel) x i with ⟨hv, hno⟩ | ⟨n, _, hh, hv⟩
  · refine Or.inl ⟨hv, fun j => ?_⟩
    have := hno (u.rowMajor j) (List.mem_finRange _)
    simpa only [Equiv.symm_apply_apply] using this
  · exact Or.inr ⟨u.rowMajor.symm n, hh, hv⟩

/-! ## A row scatter: operand `[N, C]`, one row index per update row -/

variable {N C K : ℕ}

/-- Update `(k, c)` lands at `(r, c')` exactly when row `k`'s index, read signed, is `r`, and `c = c'`. The four
    hypotheses say what the dimension numbers of such a scatter compute: the window starts at the row the index names
    and at column 0, and the window coordinate is the update's column. -/
theorem resultIdx_rows (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (k : Fin K) (c : Fin C) (r : Fin N) (c' : Fin C) :
    d.resultIdx? (ix2 k c) idx = some (ix2 r c') ↔ (idx (ix2 k (0 : Fin 1))).toInt = (r.val : Int) ∧ c = c' := by
  have e0 : d.start (ix2 k c) idx 0 + (d.window (ix2 k c) 0 : Int) = (idx (ix2 k (0 : Fin 1))).toInt := by
    rw [hs0, hw0]; simp
  have e1 : d.start (ix2 k c) idx 1 + (d.window (ix2 k c) 1 : Int) = (c.val : Int) := by
    rw [hs1, hw1]; simp
  unfold ScatterDims.resultIdx?
  constructor
  · intro h
    split at h
    · rename_i hb
      have h' := Option.some.inj h
      have h0 : (d.start (ix2 k c) idx 0 + (d.window (ix2 k c) 0 : Int)).toNat = r.val := congrArg (fun f => (f 0).val) h'
      have h1 : (d.start (ix2 k c) idx 1 + (d.window (ix2 k c) 1 : Int)).toNat = c'.val := congrArg (fun f => (f 1).val) h'
      have hb0 := (hb 0).1
      rw [e0] at h0 hb0
      rw [e1] at h1
      exact ⟨by omega, Fin.ext (by omega)⟩
    · exact nomatch h
  · rintro ⟨hr, rfl⟩
    have hb : ∀ a, 0 ≤ d.start (ix2 k c) idx a + (d.window (ix2 k c) a : Int)
        ∧ d.start (ix2 k c) idx a + (d.window (ix2 k c) a : Int) < ((⟨2, ![N, C]⟩ : Shape).size a : Int) := fun a => by
      match a with
      | ⟨0, _⟩ =>
        show 0 ≤ d.start (ix2 k c) idx 0 + (d.window (ix2 k c) 0 : Int)
          ∧ d.start (ix2 k c) idx 0 + (d.window (ix2 k c) 0 : Int) < (N : Int)
        rw [e0, hr]
        exact ⟨Int.natCast_nonneg _, by exact_mod_cast r.isLt⟩
      | ⟨1, _⟩ =>
        show 0 ≤ d.start (ix2 k c) idx 1 + (d.window (ix2 k c) 1 : Int)
          ∧ d.start (ix2 k c) idx 1 + (d.window (ix2 k c) 1 : Int) < (C : Int)
        rw [e1]
        exact ⟨Int.natCast_nonneg _, by exact_mod_cast c.isLt⟩
    rw [dif_pos hb]
    refine congrArg some (funext fun a => Fin.ext ?_)
    match a with
    | ⟨0, _⟩ =>
      show (d.start (ix2 k c) idx 0 + (d.window (ix2 k c) 0 : Int)).toNat = r.val
      rw [e0, hr, Int.toNat_natCast]
    | ⟨1, _⟩ =>
      show (d.start (ix2 k c) idx 1 + (d.window (ix2 k c) 1 : Int)).toNat = c.val
      rw [e1, Int.toNat_natCast]

/-- A row `set` scatter read at `(r, c)`: the operand's element if no row index is `r`; else the update's element
    `(k, c)` for some update row `k` whose index is `r`. -/
theorem scatter_rows_cases (d : ScatterDims (⟨2, ![N, C]⟩ : Shape) ⟨2, ![K, 1]⟩ ⟨2, ![K, C]⟩) (idx : IVec (⟨2, ![K, 1]⟩ : Shape) w)
    (hs0 : ∀ (k : Fin K) (c : Fin C), d.start (ix2 k c) idx 0 = (idx (ix2 k (0 : Fin 1))).toInt)
    (hs1 : ∀ (k : Fin K) (c : Fin C), d.start (ix2 k c) idx 1 = 0)
    (hw0 : ∀ (k : Fin K) (c : Fin C), d.window (ix2 k c) 0 = 0)
    (hw1 : ∀ (k : Fin K) (c : Fin C), d.window (ix2 k c) 1 = c.val)
    (x : (⟨2, ![N, C]⟩ : Shape).Idx → α) (upd : (⟨2, ![K, C]⟩ : Shape).Idx → α) (r : Fin N) (c : Fin C) :
    (Host.scatter d (fun _ b => b) x idx upd (ix2 r c) = x (ix2 r c)
        ∧ ∀ k : Fin K, (idx (ix2 k (0 : Fin 1))).toInt ≠ (r.val : Int))
      ∨ ∃ k : Fin K, (idx (ix2 k (0 : Fin 1))).toInt = (r.val : Int)
        ∧ Host.scatter d (fun _ b => b) x idx upd (ix2 r c) = upd (ix2 k c) := by
  rcases scatter_set_cases d x idx upd (ix2 r c) with ⟨hv, hno⟩ | ⟨j, hh, hv⟩
  · exact Or.inl ⟨hv, fun k hk => hno (ix2 k c) ((resultIdx_rows d idx hs0 hs1 hw0 hw1 k c r c).mpr ⟨hk, rfl⟩)⟩
  · rw [eq_ix2 j] at hh hv
    obtain ⟨hk, hc⟩ := (resultIdx_rows d idx hs0 hs1 hw0 hw1 (j 0) (j 1) r c).mp hh
    exact Or.inr ⟨j 0, hk, hv.trans (congrArg (fun q => upd (ix2 (j 0) q)) hc)⟩

end Cert.LibScatterRows
-- ==== Proof.RefRead.lean ====
/-
  The reference's composed function, read at an entry.

  The selected rows: entry `(k, d)` of the selection is the feature matrix at row `min(idx[k], 499999)` (the index read
  signed, a negative one at 0) and column `d`. The rows written back: entry `(k, c)` is the two-layer map of the
  selected row `k` at column `c` — the host's matrix products are plain sums of products, each bias is repeated down
  the rows, the activation acts entry by entry. The result: at `(r, c)` either no row index is `r` and the entry is
  the zero it started as, or some `k` has `idx[k] = r` and the entry is the written row `k` at `c`.
-/
import proofs.«135716_j19791209300472_2_alg».proof.Proof.RefOps
import proofs.«135716_j19791209300472_2_alg».proof.Proof.Spec
import proofs.«135716_j19791209300472_2_alg».proof.Proof.LibDotRead
import proofs.«135716_j19791209300472_2_alg».proof.Proof.LibScatterRows
import Idealize.ShloMosaic.Lib.ValueLayout
import Idealize.ShloMosaic.Lib.IdealHost
import Idealize.ShloMosaic.Lib.KernelVsHost
import Idealize.ShloMosaic.Lib.Pipeline.Value

noncomputable section

namespace Cert.ReferenceIdeal.RefRead

open Cert.ReferenceIdeal Cert.ReferenceIdeal.Gen Cert.ReferenceIdeal.RefRun Idealize.ShloMosaic Idealize.ShloMosaic.ValueIdx
open Idealize.ShloMosaic.MatmulRead Cert.MaskedMlp
open scoped BigOperators

/-! ## The selection -/

/-- Entry `(k, d)` of the selected rows: the source at the row the `k`-th index names, clamped into the array. -/
theorem gather_apply (x : FVec Ideal S500000x128 .f32) (J : IVec S250000x1 32) (k : Fin 250000) (d : Fin 128) :
    Host.gather gather_S500000x128_S250000x1_S250000x128_1_0_n_n_0_1_1128 x J (ix2 k d)
      = x (ix2 (⟨min (J (ix2 k (0 : Fin 1))).toInt.toNat 499999, by omega⟩ : Fin 500000) d) := by
  unfold Host.gather
  refine congrArg x (funext fun a => Fin.ext ?_)
  match a with
  | ⟨0, _⟩ =>
    show gather_S500000x128_S250000x1_S250000x128_1_0_n_n_0_1_1128.start (ix2 k d) J 0
        + gather_S500000x128_S250000x1_S250000x128_1_0_n_n_0_1_1128.batchCoord (ix2 k d) 0
        + gather_S500000x128_S250000x1_S250000x128_1_0_n_n_0_1_1128.offCoord (ix2 k d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S500000x128_S250000x1_S250000x128_1_0_n_n_0_1_1128.startIndexMap from
      List.mem_singleton.mpr rfl)]
    have hsi : gather_S500000x128_S250000x1_S250000x128_1_0_n_n_0_1_1128.siIdx (ix2 k d)
        ⟨List.idxOf (0 : Fin 2) gather_S500000x128_S250000x1_S250000x128_1_0_n_n_0_1_1128.startIndexMap,
          List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show gather_S500000x128_S250000x1_S250000x128_1_0_n_n_0_1_1128.start (ix2 k d) J 1
        + gather_S500000x128_S250000x1_S250000x128_1_0_n_n_0_1_1128.batchCoord (ix2 k d) 1
        + gather_S500000x128_S250000x1_S250000x128_1_0_n_n_0_1_1128.offCoord (ix2 k d) 1 = d.val
    have hs : gather_S500000x128_S250000x1_S250000x128_1_0_n_n_0_1_1128.start (ix2 k d) J 1 = 0 := by
      unfold GatherDims.start
      exact dif_neg (fun h => absurd (List.mem_singleton.mp h) (by decide))
    have ho : gather_S500000x128_S250000x1_S250000x128_1_0_n_n_0_1_1128.offCoord (ix2 k d) 1 = d.val := by
      unfold GatherDims.offCoord
      rw [dif_pos ((GatherDims.mem_sKept _ _).mpr
        ⟨fun h => absurd (List.mem_singleton.mp h) (by decide), List.not_mem_nil⟩)]
      rfl
    rw [GatherDims.batchCoord_eq_zero _ _ _ List.not_mem_nil, hs, ho]
    omega

/-! ## The two layers -/

/-- A bias vector repeated down the rows, read at `(k, q)`: the vector's entry `q`. -/
theorem bias_apply {n b : ℕ} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![n, b]⟩ ![0, 1]) (k : Fin n) (q : Fin b) :
    broadcastInDim ⟨2, ![n, b]⟩ ![0, 1] h2 (broadcastInDim ⟨2, ![1, b]⟩ ![1] h1 v) (ix2 k q) = v (ix1 q) := by
  rw [broadcastInDim_oneRow_apply]
  refine broadcastInDim_apply ![1] h1 v (ix2 (0 : Fin 1) q) (ix1 q) fun a => ?_
  match a with
  | ⟨0, _⟩ =>
    show q.val = if b = 1 then 0 else q.val
    split
    · have := q.isLt; omega
    · rfl

/-- Entry `(k, q)` of the first layer before its activation. -/
theorem hidden_apply (a0 : FVec Ideal S500000x128 .f32) (a1 : IVec S250000 32) (a2 : FVec Ideal S128x128 .f32)
    (a3 : FVec Ideal S128 .f32) (k : Fin 250000) (q : Fin 128) :
    RefRun.hidden a0 a1 a2 a3 (ix2 k q)
      = (∑ d : Fin 128, Host.gather gather_S500000x128_S250000x1_S250000x128_1_0_n_n_0_1_1128 a0 (rowIdx a1) (ix2 k d)
            * a2 (ix2 d q)) + a3 (ix1 q) := by
  unfold RefRun.hidden
  rw [addf_apply]
  exact congrArg₂ (· + ·)
    (hostDot_ix2 (D := dot_S250000x128_S128x128_S250000x128_1_0_0_1_n_n) ⟨rfl, rfl, rfl, rfl, rfl, rfl⟩ rfl rfl none _ _ k q)
    (bias_apply a3 _ _ k q)

/-- The activation acts entry by entry, in its weak-comparison spelling. -/
theorem act_apply (h : FVec Ideal S250000x128 .f32) (i : S250000x128.Idx) : act h i = lreluGe (h i) := by
  unfold act lreluGe
  rw [select_apply, cmpf_apply, mulf_apply, broadcastInDim_scalar_apply, broadcastInDim_scalar_apply]
  rfl

/-- Entry `(k, c)` of the rows written back: the two-layer map of the selected row `k`. -/
theorem rows_apply (a0 : FVec Ideal S500000x128 .f32) (a1 : IVec S250000 32) (a2 : FVec Ideal S128x128 .f32)
    (a3 : FVec Ideal S128 .f32) (a4 : FVec Ideal S128x4 .f32) (a5 : FVec Ideal S4 .f32) (k : Fin 250000) (c : Fin 4) :
    rows a0 a1 a2 a3 a4 a5 (ix2 k c)
      = mlp lreluGe (Host.gather gather_S500000x128_S250000x1_S250000x128_1_0_n_n_0_1_1128 a0 (rowIdx a1)) a2
          (fun q => a3 (ix1 q)) a4 (fun q => a5 (ix1 q)) k c := by
  unfold rows mlp
  rw [addf_apply]
  refine congrArg₂ (· + ·)
    ((hostDot_ix2 (D := dot_S250000x128_S128x4_S250000x4_1_0_0_1_n_n) ⟨rfl, rfl, rfl, rfl, rfl, rfl⟩ rfl rfl none _ _ k c).trans
      (Finset.sum_congr rfl fun q _ => congrArg₂ (· * ·) ?_ rfl))
    (bias_apply a5 _ _ k c)
  exact (act_apply _ _).trans (congrArg lreluGe (hidden_apply a0 a1 a2 a3 k q))

/-! ## Where the written rows land -/

/-- The window of update `(k, c)` starts at the row the `k`-th index names, -/
theorem start0 (J : IVec S250000x1 32) (k : Fin 250000) (c : Fin 4) :
    scatter_S500000x4_S250000x1_S250000x4_1_0_0_1.start (ix2 k c) J 0 = (J (ix2 k (0 : Fin 1))).toInt := by
  unfold ScatterDims.start
  rw [dif_pos (show (0 : Fin 2) ∈ scatter_S500000x4_S250000x1_S250000x4_1_0_0_1.scatterDimsToOperandDims from
    List.mem_singleton.mpr rfl)]
  refine congrArg (fun i => (J i).toInt) (funext fun b => Fin.ext ?_)
  match b with
  | ⟨0, _⟩ => rfl
  | ⟨1, _⟩ => rfl

/-- at column 0; -/
theorem start1 (J : IVec S250000x1 32) (k : Fin 250000) (c : Fin 4) :
    scatter_S500000x4_S250000x1_S250000x4_1_0_0_1.start (ix2 k c) J 1 = 0 := rfl

/-- the window has one row, -/
theorem window0 (k : Fin 250000) (c : Fin 4) : scatter_S500000x4_S250000x1_S250000x4_1_0_0_1.window (ix2 k c) 0 = 0 := rfl

/-- and its column coordinate is the update's column. -/
theorem window1 (k : Fin 250000) (c : Fin 4) : scatter_S500000x4_S250000x1_S250000x4_1_0_0_1.window (ix2 k c) 1 = c.val := rfl

/-- The result at `(r, c)`: zero if no row index is `r`; else the two-layer map of the selected row `k`, for some `k`
    whose row index is `r`. -/
theorem refOut_cases (a0 : FVec Ideal S500000x128 .f32) (a1 : IVec S250000 32) (a2 : FVec Ideal S128x128 .f32)
    (a3 : FVec Ideal S128 .f32) (a4 : FVec Ideal S128x4 .f32) (a5 : FVec Ideal S4 .f32) (r : Fin 500000) (c : Fin 4) :
    (refOut a0 a1 a2 a3 a4 a5 (ix2 r c) = 0 ∧ ∀ k : Fin 250000, (rowIdx a1 (ix2 k (0 : Fin 1))).toInt ≠ (r.val : Int))
      ∨ ∃ k : Fin 250000, (rowIdx a1 (ix2 k (0 : Fin 1))).toInt = (r.val : Int)
        ∧ refOut a0 a1 a2 a3 a4 a5 (ix2 r c)
          = mlp lreluGe (Host.gather gather_S500000x128_S250000x1_S250000x128_1_0_n_n_0_1_1128 a0 (rowIdx a1)) a2
              (fun q => a3 (ix1 q)) a4 (fun q => a5 (ix1 q)) k c := by
  unfold refOut
  rcases Cert.LibScatterRows.scatter_rows_cases scatter_S500000x4_S250000x1_S250000x4_1_0_0_1 (rowIdx a1)
      (start0 _) (start1 _) window0 window1
      (broadcastInDim S500000x4 ![] bcast_S_S500000x4 (constant (F := Ideal) S_ .f32 0x00000000#32))
      (rows a0 a1 a2 a3 a4 a5) r c with ⟨hv, hno⟩ | ⟨k, hk, hv⟩
  · refine Or.inl ⟨hv.trans ?_, hno⟩
    rw [broadcastInDim_scalar_apply]
    exact Ideal.ofBits_zero_f32
  · exact Or.inr ⟨k, hk, hv.trans (rows_apply a0 a1 a2 a3 a4 a5 k c)⟩

end Cert.ReferenceIdeal.RefRead

end
-- ==== Proof.KernelHost.lean ====
/-
  What the kernel program's host operations leave for the region.

  Before the region the program builds the membership mask — a column of 500000 zeros in which `1.0` is written at
  every listed row (a negative row index has the row count added first; an index still outside writes nothing) — and
  views the two bias vectors as one-row matrices. The region then finds: the mask as that scatter of ones into zeros,
  each bias row holding the bias vector's entries.
-/
import proofs.«135716_j19791209300472_2_alg».proof.Proof.Gen.KernelIdeal.Frame
import Idealize.ShloMosaic.Lib.Pipeline.Value
import Idealize.ShloMosaic.Lib.ValueLayout
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

/-- The row indices as the program normalises them: a negative index has the row count added. -/
def rowIdx (a1 : IVec S250000 32) : IVec S250000x1 32 :=
  broadcastInDim S250000x1 ![0] bcast_S250000_S250000x1_0
    (select (cmpi .slt a1 (broadcastInDim S250000 ![] bcast_S_S250000 (constantI S_ 32 0#32)))
      (addi a1 (broadcastInDim S250000 ![] bcast_S_S250000 (constantI S_ 32 500000#32))) a1)

/-- The membership mask: ones written into a column of zeros at the listed rows. -/
def maskOf (a1 : IVec S250000 32) : FVec Ideal S500000x1 .f32 :=
  Host.scatter scatter_S500000x1_S250000x1_S250000x1_1_0_0_1 (fun _ b => b)
    (broadcastInDim S500000x1 ![] bcast_S_S500000x1 (constant (F := Ideal) S_ .f32 0x00000000#32)) (rowIdx a1)
    (broadcastInDim S250000x1 ![] bcast_S_S250000x1 (constant (F := Ideal) S_ .f32 0x3F800000#32))

variable (m : (ℓ : Loc nD τ sig) → Buf (Elt Ideal) ℓ)

/-- The region finds the mask buffer holding the membership mask of the index argument. -/
theorem V_mask (c : Dev nD) :
    (V m c main_v8 : S500000x1.Idx → EReal) = maskOf (m ((c : Thread nD τ).loc main_arg1)) := by
  unfold maskOf rowIdx
  dsimp only [Gen.V, Gen.hostOps0]
  after_results
  all_goals rfl

/-- The region finds the first bias as a one-row matrix, -/
theorem V_b1 (c : Dev nD) :
    (V m c main_v9 : S1x128.Idx → EReal) = shapeCast S1x128 (m ((c : Thread nD τ).loc main_arg3)) shapeCasts_S128_S1x128 := by
  dsimp only [Gen.V, Gen.hostOps0]
  after_results
  all_goals rfl

/-- and the second bias likewise. -/
theorem V_b2 (c : Dev nD) :
    (V m c main_v10 : S1x4.Idx → EReal) = shapeCast S1x4 (m ((c : Thread nD τ).loc main_arg5)) shapeCasts_S4_S1x4 := by
  dsimp only [Gen.V, Gen.hostOps0]
  after_results
  all_goals rfl

/-- Entry `(0, k)` of the first bias row is entry `k` of the bias vector, -/
theorem V_b1_apply (c : Dev nD) (k : Fin 128) :
    (V m c main_v9 : S1x128.Idx → EReal) (ix2 (0 : Fin 1) k) = m ((c : Thread nD τ).loc main_arg3) (ix1 k) := by
  rw [V_b1]
  exact shapeCast_a_1a_apply _ _ (0 : Fin 1) k

/-- and entry `(0, q)` of the second bias row is entry `q` of its vector. -/
theorem V_b2_apply (c : Dev nD) (q : Fin 4) :
    (V m c main_v10 : S1x4.Idx → EReal) (ix2 (0 : Fin 1) q) = m ((c : Thread nD τ).loc main_arg5) (ix1 q) := by
  rw [V_b2]
  exact shapeCast_a_1a_apply _ _ (0 : Fin 1) q

end Cert.KernelIdeal.HostSide

end
-- ==== Proof.KernelMask.lean ====
/-
  The membership mask, read at a row.

  The mask is a column of zeros in which `1.0` is written at every listed row. At row `r` there are two cases: no row
  index is `r` and the entry is the zero it started as; or some row index is `r` and the entry is one — every update
  is the same `1.0`, so it does not matter which of several colliding updates is kept.
-/
import proofs.«135716_j19791209300472_2_alg».proof.Proof.KernelHost
import proofs.«135716_j19791209300472_2_alg».proof.Proof.LibScatterRows
import proofs.«135716_j19791209300472_2_alg».proof.Proof.Spec
import Idealize.ShloMosaic.Lib.IdealHost

noncomputable section

namespace Cert.KernelIdeal.HostSide

open Cert.KernelIdeal Cert.KernelIdeal.Gen Idealize.ShloMosaic Idealize.ShloMosaic.ValueIdx Cert.MaskedMlp

/-- The window of update `(k, 0)` starts at the row the `k`-th index names, -/
theorem start0 (J : IVec S250000x1 32) (k : Fin 250000) (c : Fin 1) :
    scatter_S500000x1_S250000x1_S250000x1_1_0_0_1.start (ix2 k c) J 0 = (J (ix2 k (0 : Fin 1))).toInt := by
  unfold ScatterDims.start
  rw [dif_pos (show (0 : Fin 2) ∈ scatter_S500000x1_S250000x1_S250000x1_1_0_0_1.scatterDimsToOperandDims from
    List.mem_singleton.mpr rfl)]
  refine congrArg (fun i => (J i).toInt) (funext fun b => Fin.ext ?_)
  match b with
  | ⟨0, _⟩ => rfl
  | ⟨1, _⟩ => rfl

/-- at column 0; -/
theorem start1 (J : IVec S250000x1 32) (k : Fin 250000) (c : Fin 1) :
    scatter_S500000x1_S250000x1_S250000x1_1_0_0_1.start (ix2 k c) J 1 = 0 := rfl

/-- the window has one row, -/
theorem window0 (k : Fin 250000) (c : Fin 1) : scatter_S500000x1_S250000x1_S250000x1_1_0_0_1.window (ix2 k c) 0 = 0 := rfl

/-- and its column coordinate is the update's. -/
theorem window1 (k : Fin 250000) (c : Fin 1) : scatter_S500000x1_S250000x1_S250000x1_1_0_0_1.window (ix2 k c) 1 = c.val := rfl

/-- The mask at row `r`: zero if no row index is `r`, one if some row index is `r`. -/
theorem mask_cases (a1 : IVec S250000 32) (r : Fin 500000) :
    (maskOf a1 (ix2 r (0 : Fin 1)) = 0 ∧ ∀ k : Fin 250000, (rowIdx a1 (ix2 k (0 : Fin 1))).toInt ≠ (r.val : Int))
      ∨ ((∃ k : Fin 250000, (rowIdx a1 (ix2 k (0 : Fin 1))).toInt = (r.val : Int)) ∧ maskOf a1 (ix2 r (0 : Fin 1)) = 1) := by
  unfold maskOf
  rcases Cert.LibScatterRows.scatter_rows_cases scatter_S500000x1_S250000x1_S250000x1_1_0_0_1 (rowIdx a1)
      (start0 _) (start1 _) window0 window1
      (broadcastInDim S500000x1 ![] bcast_S_S500000x1 (constant (F := Ideal) S_ .f32 0x00000000#32))
      (broadcastInDim S250000x1 ![] bcast_S_S250000x1 (constant (F := Ideal) S_ .f32 0x3F800000#32))
      r (0 : Fin 1) with ⟨hv, hno⟩ | ⟨k, hk, hv⟩
  · refine Or.inl ⟨hv.trans ?_, hno⟩
    rw [broadcastInDim_scalar_apply]
    exact Ideal.ofBits_zero_f32
  · refine Or.inr ⟨⟨k, hk⟩, hv.trans ?_⟩
    rw [broadcastInDim_scalar_apply]
    exact one_f32

end Cert.KernelIdeal.HostSide

end
-- ==== Proof.LibKeepdims.lean ====
/-
  Keepdims column forms read at an index, at the exact values: a lane sum [a, b] → [a] is the finite sum over the row;
  the cast of the vector of sums [a] → [a, 1] keeps each entry in its row; the broadcast of a column [a, 1] over the
  lanes [a, b] repeats the row's entry on every lane. With the row broadcast [1, b] → [a, b] these are all a row-wise
  normalization needs.
-/
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-- An `[a]` array cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast over `b` lanes reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array, at row `p`: the sum over the row's `b` entries. -/
theorem laneSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => by
      match c with
      | ⟨0, _⟩ => exact Fin.ext rfl
      | ⟨1, _⟩ => exact Fin.ext rfl))

end Cert.LibKeepdims
-- ==== Proof.KernelBody.lean ====
/-
  The kernel body's stored value, read at an entry.

  At a grid point the body holds a block of 2000 feature rows `x`, the two weight matrices, the two biases as one-row
  matrices, and the block's 2000 mask entries as a column. What it stores at `(p, c)` is the two-layer map of row `p`
  at column `c` — both matrix products accumulate into zero, so each is a plain sum of products; the roundings to a
  narrower float format are the identity over the extended reals; the bias rows are repeated down the rows — times the
  mask entry of row `p`, which the broadcast over the four columns repeats along the row.
-/
import proofs.«135716_j19791209300472_2_alg».proof.Proof.Gen.KernelIdeal.Skeleton
import proofs.«135716_j19791209300472_2_alg».proof.Proof.Spec
import proofs.«135716_j19791209300472_2_alg».proof.Proof.LibMatmulRead
import proofs.«135716_j19791209300472_2_alg».proof.Proof.LibKeepdims
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Idealize.ShloMosaic.MatmulRead
open Cert.MaskedMlp
open scoped BigOperators

/-- Entry `(p, c)` of the stored block: the two-layer map of row `p` of the feature block, times row `p`'s mask entry. -/
theorem pay_apply (v0 : Vec Ideal S2000x128 .f32) (v2 : Vec Ideal S128x128 .f32) (v5 : Vec Ideal S1x128 .f32)
    (v14 : Vec Ideal S128x4 .f32) (v18 : Vec Ideal S1x4 .f32) (v22 : Vec Ideal S2000x1 .f32) (p : Fin 2000) (c : Fin 4) :
    k0_pay1 (F := Ideal) v0 v2 v5 v14 v18 v22 (ix2 p c)
      = mlp lreluGt v0 v2 (fun k => v5 (ix2 (0 : Fin 1) k)) v14 (fun q => v18 (ix2 (0 : Fin 1) q)) p c
          * v22 (ix2 p (0 : Fin 1)) := by
  unfold k0_pay1
  simp only [shapeCast_self]
  rw [mulf_apply, addf_apply]
  refine (congrArg₂ (· * ·)
    (congrArg₂ (· + ·)
      (matmul_zero_ix2 (D := dot_S2000x128_S128x4_S2000x4_1_0_0_1_n_n) ⟨rfl, rfl, rfl, rfl, rfl, rfl⟩ rfl rfl none _ _ p c)
      (broadcastTo_1b_ab_apply v18 _ p c))
    (Cert.LibKeepdims.broadcastTo_a1_ab_apply v22 _ p c)).trans ?_
  unfold mlp
  refine congrArg₂ (· * ·) (congrArg₂ (· + ·) (Finset.sum_congr rfl fun k _ => ?_) rfl) rfl
  refine congrArg₂ (· * ·) ?_ rfl
  rw [truncf_apply, select_apply, cmpf_apply, mulf_apply, addf_apply, broadcast_apply, broadcast_apply]
  exact congrArg lreluGt (congrArg₂ (· + ·)
    (matmul_zero_ix2 (D := dot_S2000x128_S128x128_S2000x128_1_0_0_1_n_n) ⟨rfl, rfl, rfl, rfl, rfl, rfl⟩ rfl rfl none
      (truncf (F := Ideal) .bf16 v0 bitsLt_bf16_f32) (truncf (F := Ideal) .bf16 v2 bitsLt_bf16_f32) p k)
    (broadcastTo_1b_ab_apply v5 broadcasts_S1x128_S2000x128 p k))

end Cert.KernelIdeal.Body

end
-- ==== Proof.KernelBlocks.lean ====
/-
  The blocks a grid point works on, read off the arrays.

  The grid has 250 points; point `t` holds rows `2000·t … 2000·t + 1999` of the feature matrix, of the mask and of the
  output, and the whole of the weights and biases. So entry `(p, d)` of point `t`'s feature block is entry
  `(2000·t + p, d)` of the feature matrix, likewise for the mask and the output, and the weight and bias blocks are
  the arrays themselves. The whole-array function the output will turn out to hold is stated here too.
-/
import proofs.«135716_j19791209300472_2_alg».proof.Proof.Gen.KernelIdeal.Value
import proofs.«135716_j19791209300472_2_alg».proof.Proof.KernelBody
import Idealize.ShloMosaic.PureOps.Ideal

noncomputable section

namespace Cert.KernelIdeal.Blocks

open Cert.KernelIdeal Cert.KernelIdeal.Gen Idealize.ShloMosaic Idealize.ShloMosaic.TcCoe Idealize.SL.Sem
open Idealize.ShloMosaic.ValueIdx Cert.MaskedMlp
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The whole-array function: entry `(r, c)` from the feature matrix `A0`, the mask column `A1`, the weights `A2`,
    `A4` and the bias rows `A3`, `A5`. -/
def arrayFn (A0 : S500000x128.Idx → EReal) (A1 : S500000x1.Idx → EReal) (A2 : S128x128.Idx → EReal)
    (A3 : S1x128.Idx → EReal) (A4 : S128x4.Idx → EReal) (A5 : S1x4.Idx → EReal) : S500000x4.Idx → EReal :=
  fun i => mlp lreluGt A0 A2 (fun k => A3 (ix2 (0 : Fin 1) k)) A4 (fun q => A5 (ix2 (0 : Fin 1) q)) (i 0) (i 1)
    * A1 (ix2 (i 0) (0 : Fin 1))

/-- The printed index maps over the grid: the three row-blocked windows sit at block `t`, column block 0; the four
    whole-array windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `2000·t + p` of the array. -/
def rowOf (t : Fin cfg0.N) (p : Fin 2000) : Fin 500000 :=
  ⟨t.val * 2000 + p.val, by have ht : t.val < 250 := lt_of_lt_of_eq t.isLt N_0; omega⟩

/-! ## Each window's block, read off its array -/

theorem blk0 (c : Dev nD) (t : Fin cfg0.N) (p : Fin 2000) (d : Fin 128) :
    iblk m c 0 t (ix2 p d) = V m c main_arg0 (ix2 (rowOf t p) d) := by
  obtain ⟨e00, e01, -⟩ := idx_facts t
  show V m c main_arg0 (((cfg0.win 0).blk t).view.emb (ix2 p d)) = V m c main_arg0 (ix2 (rowOf t p) d)
  refine congrArg (V m c main_arg0) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * d.val = d.val; omega

theorem blk1 (c : Dev nD) (t : Fin cfg0.N) (p : Fin 2000) :
    iblk m c 1 t (ix2 p (0 : Fin 1)) = V m c main_v8 (ix2 (rowOf t p) (0 : Fin 1)) := by
  obtain ⟨-, -, e10, e11, -⟩ := idx_facts t
  show V m c main_v8 (((cfg0.win 1).blk t).view.emb (ix2 p (0 : Fin 1))) = V m c main_v8 (ix2 (rowOf t p) (0 : Fin 1))
  refine congrArg (V m c main_v8) (funext fun a => Fin.ext ?_)
  match a with
  | ⟨0, _⟩ => show win0_1.index t (0 : Fin 2) * 2000 + 1 * p.val = t.val * 2000 + p.val; omega
  | ⟨1, _⟩ => show win0_1.index t (1 : Fin 2) * 1 + 1 * 0 = 0; omega

theorem blk2 (c : Dev nD) (t : Fin cfg0.N) : (iblk m c 2 t : S128x128.Idx → EReal) = V m c main_arg2 := by
  obtain ⟨-, -, -, -, e20, e21, e30, e31, e40, e41, e50, e51, -, -⟩ := idx_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem blk3 (c : Dev nD) (t : Fin cfg0.N) : (iblk m c 3 t : S1x128.Idx → EReal) = V m c main_v9 := by
  obtain ⟨-, -, -, -, e20, e21, e30, e31, e40, e41, e50, e51, -, -⟩ := idx_facts t
  funext y
  show V m c main_v9 (((cfg0.win 3).blk t).view.emb y) = V m c main_v9 y
  refine congrArg (V m c main_v9) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

theorem blk4 (c : Dev nD) (t : Fin cfg0.N) : (iblk m c 4 t : S128x4.Idx → EReal) = V m c main_arg4 := by
  obtain ⟨-, -, -, -, e20, e21, e30, e31, e40, e41, e50, e51, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 128 + 1 * (y 0).val = (y 0).val; omega
  | ⟨1, _⟩ => show win0_4.index t (1 : Fin 2) * 4 + 1 * (y 1).val = (y 1).val; omega

theorem blk5 (c : Dev nD) (t : Fin cfg0.N) : (iblk m c 5 t : S1x4.Idx → EReal) = V m c main_v10 := by
  obtain ⟨-, -, -, -, e20, e21, e30, e31, e40, e41, e50, e51, -, -⟩ := idx_facts t
  funext y
  show V m c main_v10 (((cfg0.win 5).blk t).view.emb y) = V m c main_v10 y
  refine congrArg (V m c main_v10) (funext fun a => Fin.ext ?_)
  match a with
  | ⟨0, _⟩ => show win0_5.index t (0 : Fin 2) * 1 + 1 * (y 0).val = (y 0).val; omega
  | ⟨1, _⟩ => show win0_5.index t (1 : Fin 2) * 4 + 1 * (y 1).val = (y 1).val; omega

/-- Entry `(p, q)` of the output's block `t` is entry `(2000·t + p, q)` of the array. -/
theorem emb6 (t : Fin cfg0.N) (p : Fin 2000) (q : Fin 4) :
    ((cfg0.win 6).blk t).view.emb (ix2 p q) = ix2 (rowOf t p) q := by
  obtain ⟨-, -, -, -, -, -, -, -, -, -, -, -, e60, e61⟩ := idx_facts t
  funext a; apply Fin.ext
  match a with
  | ⟨0, _⟩ => show win0_6.index t (0 : Fin 2) * 2000 + 1 * p.val = t.val * 2000 + p.val; omega
  | ⟨1, _⟩ => show win0_6.index t (1 : Fin 2) * 4 + 1 * q.val = q.val; omega

end Cert.KernelIdeal.Blocks

end
-- ==== Proof.Bridge.lean ====
/-
  The two programs compute one function.

  The kernel program's output is, at `(r, c)`, the two-layer map of row `r` of the feature matrix times the mask entry
  of row `r`; the reference's is the all-zero array with the two-layer map of each SELECTED row written at its row
  index. Both are decided by the same question — is `r` one of the row indices? If not, the mask entry is zero and the
  product is zero (`x · 0 = 0` for every extended real), which is what the reference left there. If `idx[k] = r` for
  some `k`, the mask entry is one, and the reference's entry is the map of the selected row `k` — which IS row `r`
  of the feature matrix, the index being inside the array so that the selection's clamp does nothing. The two
  spellings of the activation agree.
-/
import proofs.«135716_j19791209300472_2_alg».proof.Proof.RefRead
import proofs.«135716_j19791209300472_2_alg».proof.Proof.KernelMask
import proofs.«135716_j19791209300472_2_alg».proof.Proof.KernelBlocks

noncomputable section

namespace Cert.Bridge

open Idealize.ShloMosaic Idealize.ShloMosaic.TcCoe Idealize.SL.Sem Idealize.ShloMosaic.ValueIdx Cert.MaskedMlp

/-- A selected row whose index is `r` is row `r` of the source: the index is inside the array, so the clamp is idle. -/
theorem gather_of_hit (x : FVec Ideal Cert.ReferenceIdeal.S500000x128 .f32) (J : IVec Cert.ReferenceIdeal.S250000x1 32)
    (k : Fin 250000) (r : Fin 500000) (hk : (J (ix2 k (0 : Fin 1))).toInt = (r.val : Int)) (d : Fin 128) :
    Host.gather Cert.ReferenceIdeal.gather_S500000x128_S250000x1_S250000x128_1_0_n_n_0_1_1128 x J (ix2 k d) = x (ix2 r d) := by
  rw [Cert.ReferenceIdeal.RefRead.gather_apply]
  refine congrArg (fun i : Fin 500000 => x (ix2 i d)) (Fin.ext ?_)
  show min (J (ix2 k (0 : Fin 1))).toInt.toNat 499999 = r.val
  rw [hk, Int.toNat_natCast]
  exact Nat.min_eq_left (by have := r.isLt; omega)

/-- The kernel program's whole-array function, with the mask of the index argument and the biases as one-row
    matrices, is the reference's composed function. -/
theorem array_eq_ref (a0 : (⟨2, ![500000, 128]⟩ : Shape).Idx → EReal) (a1 : IVec (⟨1, ![250000]⟩ : Shape) 32)
    (a2 : (⟨2, ![128, 128]⟩ : Shape).Idx → EReal) (a3 : (⟨1, ![128]⟩ : Shape).Idx → EReal)
    (a4 : (⟨2, ![128, 4]⟩ : Shape).Idx → EReal) (a5 : (⟨1, ![4]⟩ : Shape).Idx → EReal)
    (B1 : (⟨2, ![1, 128]⟩ : Shape).Idx → EReal) (B2 : (⟨2, ![1, 4]⟩ : Shape).Idx → EReal)
    (hB1 : ∀ k : Fin 128, B1 (ix2 (0 : Fin 1) k) = a3 (ix1 k)) (hB2 : ∀ q : Fin 4, B2 (ix2 (0 : Fin 1) q) = a5 (ix1 q)) :
    Cert.KernelIdeal.Blocks.arrayFn a0 (Cert.KernelIdeal.HostSide.maskOf a1) a2 B1 a4 B2
      = Cert.ReferenceIdeal.RefRun.refOut (F := Ideal) a0 a1 a2 a3 a4 a5 := by
  funext i
  obtain ⟨r, c, rfl⟩ : ∃ (r : Fin 500000) (c : Fin 4), i = ix2 r c := ⟨i 0, i 1, eq_ix2 i⟩
  have hb1 : (fun k : Fin 128 => B1 (ix2 (0 : Fin 1) k)) = fun k => a3 (ix1 k) := funext hB1
  have hb2 : (fun q : Fin 4 => B2 (ix2 (0 : Fin 1) q)) = fun q => a5 (ix1 q) := funext hB2
  show mlp lreluGt a0 a2 (fun k => B1 (ix2 (0 : Fin 1) k)) a4 (fun q => B2 (ix2 (0 : Fin 1) q)) r c
      * Cert.KernelIdeal.HostSide.maskOf a1 (ix2 r (0 : Fin 1)) = _
  rw [hb1, hb2]
  rcases Cert.KernelIdeal.HostSide.mask_cases a1 r with ⟨hm, hnoK⟩ | ⟨⟨k', hk'⟩, hm⟩
  · rcases Cert.ReferenceIdeal.RefRead.refOut_cases a0 a1 a2 a3 a4 a5 r c with ⟨hv, -⟩ | ⟨k, hk, -⟩
    · rw [hm, hv, mul_zero]
    · exact absurd hk (hnoK k)
  · rcases Cert.ReferenceIdeal.RefRead.refOut_cases a0 a1 a2 a3 a4 a5 r c with ⟨-, hno⟩ | ⟨k, hk, hv⟩
    · exact absurd hk' (hno k')
    · rw [hm, mul_one, hv]
      exact (mlp_lrelu a0 a2 _ a4 _ r c).trans
        (mlp_congr_row lreluGe a0 _ a2 _ a4 _ r k c (fun d => gather_of_hit a0 _ k r hk d)).symm

/-- The kernel program's output array after its run, in terms of the launch memory, is the reference's composed
    function of the same six arguments. -/
theorem kernel_array_eq (m : (ℓ : Loc Cert.KernelIdeal.nD Cert.KernelIdeal.τ Cert.KernelIdeal.sig) → Buf (Elt Ideal) ℓ)
    (c : Dev Cert.KernelIdeal.nD) :
    Cert.KernelIdeal.Blocks.arrayFn (Cert.KernelIdeal.Gen.V m c Cert.KernelIdeal.main_arg0)
        (Cert.KernelIdeal.Gen.V m c Cert.KernelIdeal.main_v8) (Cert.KernelIdeal.Gen.V m c Cert.KernelIdeal.main_arg2)
        (Cert.KernelIdeal.Gen.V m c Cert.KernelIdeal.main_v9) (Cert.KernelIdeal.Gen.V m c Cert.KernelIdeal.main_arg4)
        (Cert.KernelIdeal.Gen.V m c Cert.KernelIdeal.main_v10)
      = Cert.ReferenceIdeal.RefRun.refOut (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5)) := by
  rw [Cert.KernelIdeal.Gen.V_main_arg0 m c, Cert.KernelIdeal.Gen.V_main_arg2 m c, Cert.KernelIdeal.Gen.V_main_arg4 m c,
    Cert.KernelIdeal.HostSide.V_mask m c]
  exact array_eq_ref _ _ _ _ _ _ _ _ (Cert.KernelIdeal.HostSide.V_b1_apply m c) (Cert.KernelIdeal.HostSide.V_b2_apply m c)

end Cert.Bridge

end
-- ==== Proof.KernelArray.lean ====
/-
  From the blocks each grid point writes to the whole output array.

  The grid has 250 points; point `t` holds rows `2000·t … 2000·t + 1999` of the feature matrix, of the mask and of the
  output, and the whole of the weights and biases. What point `t` writes back is therefore block `t` of ONE
  whole-array function: entry `(r, c)` is the two-layer map of row `r` of the feature matrix at column `c`, times the
  mask entry of row `r`. The 250 blocks tile the 500000 rows (row `r` lies in block `r / 2000`), so after the run the
  output array is that function everywhere.
-/
import proofs.«135716_j19791209300472_2_alg».proof.Proof.KernelBlocks

noncomputable section

namespace Cert.KernelIdeal.Blocks

open Cert.KernelIdeal Cert.KernelIdeal.Gen Idealize.ShloMosaic Idealize.ShloMosaic.TcCoe Idealize.SL.Sem
open Idealize.ShloMosaic.ValueIdx Cert.MaskedMlp
open Idealize.ShloMosaic.Pipeline (Dat)

variable (m : (ℓ : Loc nD τ sig) → Buf (Elt Ideal) ℓ) (ρ : Dev nD → PrngReg)

/-! ## What a point writes back, and the array after the run -/

/-- The body's stored value over point `t`'s blocks is block `t` of the whole-array function of the arrays as the
    region finds them. -/
theorem pay_blocks (c : Dev nD) (t : Fin cfg0.N) :
    k0_pay1 (F := Ideal) (iblk m c 0 t) (iblk m c 2 t) (iblk m c 3 t) (iblk m c 4 t) (iblk m c 5 t) (iblk m c 1 t)
      = fun j => arrayFn (V m c main_arg0) (V m c main_v8) (V m c main_arg2) (V m c main_v9) (V m c main_arg4)
          (V m c main_v10) (((cfg0.win 6).blk t).view.emb j) := by
  funext j
  obtain ⟨p, q, rfl⟩ : ∃ (p : Fin 2000) (q : Fin 4), j = ix2 p q := ⟨j 0, j 1, eq_ix2 j⟩
  rw [emb6 t p q]
  refine (Body.pay_apply (iblk m c 0 t) (iblk m c 2 t) (iblk m c 3 t) (iblk m c 4 t) (iblk m c 5 t) (iblk m c 1 t) p q).trans ?_
  rw [blk1 m c t p, blk2 m c t, blk3 m c t, blk4 m c t, blk5 m c t]
  unfold arrayFn
  exact congrArg (· * V m c main_v8 (ix2 (rowOf t p) (0 : Fin 1)))
    (mlp_congr_row lreluGt (V m c main_arg0) (iblk m c 0 t) (V m c main_arg2) _ (V m c main_arg4) _ (rowOf t p) p q
      (fun d => blk0 m c t p d))

/-- For a block that lies inside its array, what is written back from a staging buffer holding `j ↦ f (block's j-th
    array index)` is the block of `f` read through the window. Stated for an arbitrary `f`, so that nothing about `f`
    is ever unfolded. -/
theorem cut_read (f : S500000x4.Idx → EReal) (t : Fin cfg0.N) :
    ((win0 6).cut (grid0.coords t) fun j => f (((cfg0.win 6).blk t).view.emb j))
      = View.read (Elt Ideal) ((View.whole main_v11).slice ((win0 6).rect t)) f := by
  funext j
  rfl

/-- What point `t` writes back is block `t` of the whole-array function of the arrays as the region finds them. -/
theorem flushed_eq (c : Dev nD) (t : Fin cfg0.N) :
    (dats m 0 c).flushed 6 t = ((cfg0.win 6).blk t).view.read (Elt Ideal)
      (arrayFn (V m c main_arg0) (V m c main_v8) (V m c main_arg2) (V m c main_v9) (V m c main_arg4) (V m c main_v10)) := by
  rw [Value.flushed6]
  unfold out0_6
  rw [View.canon_unit_zero origin]
  simp only [View.ld_unit_zero (S := S2000x128) origin, View.ld_unit_zero (S := S2000x1) origin,
    View.ld_unit_zero (S := S128x128) origin, View.ld_unit_zero (S := S1x128) origin,
    View.ld_unit_zero (S := S128x4) origin, View.ld_unit_zero (S := S1x4) origin]
  rw [pay_blocks m c t]
  exact cut_read _ t

/-- An index of the array is in point `t`'s block iff each coordinate is in the block's range on its axis. -/
theorem mem_blk (t : Fin cfg0.N) (i : S500000x4.Idx) :
    i ∈ ((cfg0.win 6).blk t).view.set ↔ ∀ a : Fin 2, win0_6.index t a * S2000x4.size a ≤ (i a).val
      ∧ (i a).val < win0_6.index t a * S2000x4.size a + S2000x4.size a := by
  show i ∈ ((View.whole main_v11).slice (win0_6.rect t)).set ↔ _
  rw [View.set_slice_whole, Rect.mem_set_unit]
  exact Iff.rfl

/-- Every row lies in the block of the point `row / 2000`. -/
theorem cover (i : S500000x4.Idx) : ∃ t : Fin cfg0.N, (cfg0.win 6).flush t = true ∧ i ∈ ((cfg0.win 6).blk t).view.set := by
  have h0 : (i 0).val < 500000 := (i 0).isLt
  have h1 : (i 1).val < 4 := (i 1).isLt
  have hN : cfg0.N = 250 := N_0
  let t : Fin cfg0.N := ⟨(i 0).val / 2000, by rw [hN]; omega⟩
  obtain ⟨-, -, -, -, -, -, -, -, -, -, -, -, e60, e61⟩ := idx_facts t
  have ht : t.val = (i 0).val / 2000 := rfl
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 4 ≤ (i 1).val ∧ (i 1).val < win0_6.index t (1 : Fin 2) * 4 + 4
    omega

/-- After the run the output array is the whole-array function of the arrays as the region found them. -/
theorem final (c : Dev nD) : (dats m 0 c).arrAt 6 cfg0.N
    = arrayFn (V m c main_arg0) (V m c main_v8) (V m c main_arg2) (V m c main_v9) (V m c main_arg4) (V m c main_v10) :=
  (dats m 0 c).arrAt_eq_of_cover 6 _ (fun t _ => flushed_eq m c t) cover

end Cert.KernelIdeal.Blocks

end
-- ==== Proof.lean ====
/-
  A dense two-layer map masked by row membership, against a gather / map / scatter.

  The kernel program runs the two-layer map `y = act(x·W1 + b1)·W2 + b2` on EVERY row of the feature matrix and
  multiplies row `r`'s result by a membership mask — one where `r` is among the given row indices, zero elsewhere —
  built beforehand by writing ones into a column of zeros. The reference selects the indexed rows, runs the same map
  on them, and writes the results into an all-zero array at the same indices. Over the extended reals the two results
  are equal entry by entry: where `r` is not indexed both are zero (`x · 0 = 0`), where it is both are the map of
  row `r`. No finiteness of the inputs is used.

  The three frames are the generated frame runs (the reference's run with its result dropped); the idealization
  rewrote nothing, so `preserves` is trivial; `algebraic` sets the kernel's run — its output array as one whole-array
  function of the arguments — beside the reference's run and cites the equality of the two functions.
-/
import proofs.«135716_j19791209300472_2_alg».proof.Defs
import proofs.«135716_j19791209300472_2_alg».proof.Proof.Gen.Kernel
import proofs.«135716_j19791209300472_2_alg».proof.Proof.Gen.Kernel.Frame
import proofs.«135716_j19791209300472_2_alg».proof.Proof.Gen.KernelIdeal
import proofs.«135716_j19791209300472_2_alg».proof.Proof.Gen.KernelIdeal.Frame
import proofs.«135716_j19791209300472_2_alg».proof.Proof.Gen.KernelIdeal.Value
import proofs.«135716_j19791209300472_2_alg».proof.Proof.Gen.ReferenceIdeal
import proofs.«135716_j19791209300472_2_alg».proof.Proof.Gen.Pre_finite_inputs
import proofs.«135716_j19791209300472_2_alg».proof.Proof.RefRun
import proofs.«135716_j19791209300472_2_alg».proof.Proof.Bridge
import proofs.«135716_j19791209300472_2_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The kernel program's run with its output array named as one function of the launch memory: the blockwise run,
    the blocks assembled into the whole-array function. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c : Thread Cert.KernelIdeal.nD Cert.KernelIdeal.τ).loc Cert.KernelIdeal.main_v11)
            = Cert.ReferenceIdeal.RefRun.refOut (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
                (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5))
        ∧ r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3)
        ∧ r.2.mem ((c : Thread Cert.KernelIdeal.nD Cert.KernelIdeal.τ).loc Cert.KernelIdeal.main_arg4) = m ((c : Thread Cert.KernelIdeal.nD Cert.KernelIdeal.τ).loc Cert.KernelIdeal.main_arg4)
        ∧ r.2.mem ((c : Thread Cert.KernelIdeal.nD Cert.KernelIdeal.τ).loc Cert.KernelIdeal.main_arg5) = m ((c : Thread Cert.KernelIdeal.nD Cert.KernelIdeal.τ).loc Cert.KernelIdeal.main_arg5) :=
  (θ_run Cert.KernelIdeal.defs _ _).mono
    (fun r h c => ⟨(h c).1.trans ((Cert.KernelIdeal.Blocks.final m c).trans (Cert.Bridge.kernel_array_eq m c)), (h c).2⟩)
    (Cert.KernelIdeal.Value.run_blocks (F := Ideal) m ρ)

/-- Both programs end with the reference's composed function of the (agreeing) arguments in their result buffers. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
